-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x1600000 : Shape := ⟨2, ![2, 1600000]⟩
abbrev S1433x100 : Shape := ⟨2, ![1433, 100]⟩
abbrev S100 : Shape := ⟨1, ![100]⟩
abbrev S100x50 : Shape := ⟨2, ![100, 50]⟩
abbrev S50 : Shape := ⟨1, ![50]⟩
abbrev S50x7 : Shape := ⟨2, ![50, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x100 : S_.BroadcastsInDim S1433x100 (![] : Fin 0 → Fin S1433x100.rank)
  reducesTo_S1433x100_S_d0_1 : S1433x100.ReducesTo [0, 1] S_
  bcast_S_S100 : S_.BroadcastsInDim S100 (![] : Fin 0 → Fin S100.rank)
  reducesTo_S100_S_d0 : S100.ReducesTo [0] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x7 : S_.BroadcastsInDim S50x7 (![] : Fin 0 → Fin S50x7.rank)
  reducesTo_S50x7_S_d0_1 : S50x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S50 .f32) (main_arg6 : FVec F S50x7 .f32) (main_arg7 : FVec F S7 .f32) (main_v13 : IVec S_ 1) (main_v16 : IVec S100x50 1) : IVec S_ 1 :=
  let main_c_5 : IVec S_ 1 := constantI S_ 1 1#1
  let main_v17 : IVec S_ 1 := (fun x v => Host.reduce IntOp.andi x v reducesTo_S100x50_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x7 .f32 := Host.absf main_arg6
  let main_cst_8 : FVec F S_ .f32 := constant S_ .f32 0x7F800000#32
  let main_v25 : FVec F S50x7 .f32 := broadcastInDim S50x7 ![] bcast_S_S50x7 main_cst_8
  let main_v26 : IVec S50x7 1 := cmpf .olt main_v24 main_v25
  let main_c_9 : IVec S_ 1 := constantI S_ 1 1#1
  let main_v27 : IVec S_ 1 := (fun x v => Host.reduce IntOp.andi x v reducesTo_S50x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x1433 .f32) (main_arg1 : IVec S2x1600000 32) (main_arg2 : FVec F S1433x100 .f32) (main_arg3 : FVec F S100 .f32) (main_arg4 : FVec F S100x50 .f32) (main_arg5 : FVec F S50 .f32) (main_arg6 : FVec F S50x7 .f32) (main_arg7 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x100 .f32 := Host.absf main_arg2
  let main_cst_0 : FVec F S_ .f32 := constant S_ .f32 0x7F800000#32
  let main_v5 : FVec F S1433x100 .f32 := broadcastInDim S1433x100 ![] bcast_S_S1433x100 main_cst_0
  let main_v6 : IVec S1433x100 1 := cmpf .olt main_v4 main_v5
  let main_c_1 : IVec S_ 1 := constantI S_ 1 1#1
  let main_v7 : IVec S_ 1 := (fun x v => Host.reduce IntOp.andi x v reducesTo_S1433x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x50 .f32 := Host.absf main_arg4
  let main_cst_4 : FVec F S_ .f32 := constant S_ .f32 0x7F800000#32
  let main_v15 : FVec F S100x50 .f32 := broadcastInDim S100x50 ![] bcast_S_S100x50 main_cst_4
  let main_v16 : IVec S100x50 1 := cmpf .olt main_v14 main_v15
  fn_part1 (F := F) main_arg5 main_arg6 main_arg7 main_v13 main_v16
-- ==== Kernel.lean ====
abbrev S50000x1433 : Shape := ⟨2, ![50000, 1433]⟩
abbrev S2x1600000 : Shape := ⟨2, ![2, 1600000]⟩
abbrev S1433x100 : Shape := ⟨2, ![1433, 100]⟩
abbrev S100 : Shape := ⟨1, ![100]⟩
abbrev S100x50 : Shape := ⟨2, ![100, 50]⟩
abbrev S50 : Shape := ⟨1, ![50]⟩
abbrev S50x7 : Shape := ⟨2, ![50, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x100 : Shape := ⟨2, ![50000, 100]⟩
abbrev S2000x1433 : Shape := ⟨2, ![2000, 1433]⟩
abbrev S2000x100 : Shape := ⟨2, ![2000, 100]⟩
abbrev S1650000x100 : Shape := ⟨2, ![1650000, 100]⟩
abbrev S1x100 : Shape := ⟨2, ![1, 100]⟩
abbrev S50000x50 : Shape := ⟨2, ![50000, 50]⟩
abbrev S2000x50 : Shape := ⟨2, ![2000, 50]⟩
abbrev S1650000x50 : Shape := ⟨2, ![1650000, 50]⟩
abbrev S1x50 : Shape := ⟨2, ![1, 50]⟩
abbrev S50000x7 : Shape := ⟨2, ![50000, 7]⟩
abbrev S2000x7 : Shape := ⟨2, ![2000, 7]⟩
abbrev S1650000x7 : Shape := ⟨2, ![1650000, 7]⟩
abbrev S1x7 : Shape := ⟨2, ![1, 7]⟩

abbrev nBuf : Space → Nat
  | .hbm => 120
  | .vmem => 15
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x100, .f32⟩
  | .hbm, ⟨3, _⟩ => ⟨S100, .f32⟩
  | .hbm, ⟨4, _⟩ => ⟨S100x50, .f32⟩
  | .hbm, ⟨5, _⟩ => ⟨S50, .f32⟩
  | .hbm, ⟨6, _⟩ => ⟨S50x7, .f32⟩
  | .hbm, ⟨7, _⟩ => ⟨S7, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x100, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x100, .f32⟩
  | .hbm, ⟨61, _⟩ => ⟨S1650000x1, .f32⟩
  | .hbm, ⟨62, _⟩ => ⟨S1650000x100, .f32⟩
  | .hbm, ⟨63, _⟩ => ⟨S1650000x100, .f32⟩
  | .hbm, ⟨64, _⟩ => ⟨S_, .f32⟩
  | .hbm, ⟨65, _⟩ => ⟨S50000x100, .f32⟩
  | .hbm, ⟨66, _⟩ => ⟨S1650000x1, .i32⟩
  | .hbm, ⟨67, _⟩ => ⟨S50000x100, .f32⟩
  | .hbm, ⟨68, _⟩ => ⟨S1x100, .f32⟩
  | .hbm, ⟨69, _⟩ => ⟨S50000x100, .f32⟩
  | .hbm, ⟨70, _⟩ => ⟨S50000x100, .f32⟩
  | .hbm, ⟨71, _⟩ => ⟨S_, .f32⟩
  | .hbm, ⟨72, _⟩ => ⟨S50000x100, .f32⟩
  | .hbm, ⟨73, _⟩ => ⟨S50000x100, .f32⟩
  | .hbm, ⟨74, _⟩ => ⟨S50000x50, .f32⟩
  | .hbm, ⟨75, _⟩ => ⟨S_, .i32⟩
  | .hbm, ⟨76, _⟩ => ⟨S1650000, .i32⟩
  | .hbm, ⟨77, _⟩ => ⟨S1650000, .i1⟩
  | .hbm, ⟨78, _⟩ => ⟨S_, .i32⟩
  | .hbm, ⟨79, _⟩ => ⟨S1650000, .i32⟩
  | .hbm, ⟨80, _⟩ => ⟨S1650000, .i32⟩
  | .hbm, ⟨81, _⟩ => ⟨S1650000, .i32⟩
  | .hbm, ⟨82, _⟩ => ⟨S1650000x1, .i32⟩
  | .hbm, ⟨83, _⟩ => ⟨S1650000x50, .f32⟩
  | .hbm, ⟨84, _⟩ => ⟨S1650000x1, .f32⟩
  | .hbm, ⟨85, _⟩ => ⟨S1650000x50, .f32⟩
  | .hbm, ⟨86, _⟩ => ⟨S1650000x50, .f32⟩
  | .hbm, ⟨87, _⟩ => ⟨S_, .f32⟩
  | .hbm, ⟨88, _⟩ => ⟨S50000x50, .f32⟩
  | .hbm, ⟨89, _⟩ => ⟨S1650000x1, .i32⟩
  | .hbm, ⟨90, _⟩ => ⟨S50000x50, .f32⟩
  | .hbm, ⟨91, _⟩ => ⟨S1x50, .f32⟩
  | .hbm, ⟨92, _⟩ => ⟨S50000x50, .f32⟩
  | .hbm, ⟨93, _⟩ => ⟨S50000x50, .f32⟩
  | .hbm, ⟨94, _⟩ => ⟨S_, .f32⟩
  | .hbm, ⟨95, _⟩ => ⟨S50000x50, .f32⟩
  | .hbm, ⟨96, _⟩ => ⟨S50000x50, .f32⟩
  | .hbm, ⟨97, _⟩ => ⟨S50000x7, .f32⟩
  | .hbm, ⟨98, _⟩ => ⟨S_, .i32⟩
  | .hbm, ⟨99, _⟩ => ⟨S1650000, .i32⟩
  | .hbm, ⟨100, _⟩ => ⟨S1650000, .i1⟩
  | .hbm, ⟨101, _⟩ => ⟨S_, .i32⟩
  | .hbm, ⟨102, _⟩ => ⟨S1650000, .i32⟩
  | .hbm, ⟨103, _⟩ => ⟨S1650000, .i32⟩
  | .hbm, ⟨104, _⟩ => ⟨S1650000, .i32⟩
  | .hbm, ⟨105, _⟩ => ⟨S1650000x1, .i32⟩
  | .hbm, ⟨106, _⟩ => ⟨S1650000x7, .f32⟩
  | .hbm, ⟨107, _⟩ => ⟨S1650000x1, .f32⟩
  | .hbm, ⟨108, _⟩ => ⟨S1650000x7, .f32⟩
  | .hbm, ⟨109, _⟩ => ⟨S1650000x7, .f32⟩
  | .hbm, ⟨110, _⟩ => ⟨S_, .f32⟩
  | .hbm, ⟨111, _⟩ => ⟨S50000x7, .f32⟩
  | .hbm, ⟨112, _⟩ => ⟨S1650000x1, .i32⟩
  | .hbm, ⟨113, _⟩ => ⟨S50000x7, .f32⟩
  | .hbm, ⟨114, _⟩ => ⟨S1x7, .f32⟩
  | .hbm, ⟨115, _⟩ => ⟨S50000x7, .f32⟩
  | .hbm, ⟨116, _⟩ => ⟨S50000x7, .f32⟩
  | .hbm, ⟨117, _⟩ => ⟨S_, .f32⟩
  | .hbm, ⟨118, _⟩ => ⟨S50000x7, .f32⟩
  | .hbm, ⟨119, _⟩ => ⟨S50000x7, .f32⟩
  | .local _ .vmem, ⟨0, _⟩ => ⟨S2000x1433, .f32⟩
  | .local _ .vmem, ⟨1, _⟩ => ⟨S2000x1433, .f32⟩
  | .local _ .vmem, ⟨2, _⟩ => ⟨S1433x100, .f32⟩
  | .local _ .vmem, ⟨3, _⟩ => ⟨S2000x100, .f32⟩
  | .local _ .vmem, ⟨4, _⟩ => ⟨S2000x100, .f32⟩
  | .local _ .vmem, ⟨5, _⟩ => ⟨S2000x100, .f32⟩
  | .local _ .vmem, ⟨6, _⟩ => ⟨S2000x100, .f32⟩
  | .local _ .vmem, ⟨7, _⟩ => ⟨S100x50, .f32⟩
  | .local _ .vmem, ⟨8, _⟩ => ⟨S2000x50, .f32⟩
  | .local _ .vmem, ⟨9, _⟩ => ⟨S2000x50, .f32⟩
  | .local _ .vmem, ⟨10, _⟩ => ⟨S2000x50, .f32⟩
  | .local _ .vmem, ⟨11, _⟩ => ⟨S2000x50, .f32⟩
  | .local _ .vmem, ⟨12, _⟩ => ⟨S50x7, .f32⟩
  | .local _ .vmem, ⟨13, _⟩ => ⟨S2000x7, .f32⟩
  | .local _ .vmem, ⟨14, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S50x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x100_S1433x100_0_0 : ∀ a, (![0, 0] : Fin 2 → Nat) a + S1433x100.size a ≤ S1433x100.size a
  h_S1433x100 : 0 < S1433x100.numel
  inb_S2000x100_S2000x100_0_0 : ∀ a, (![0, 0] : Fin 2 → Nat) a + S2000x100.size a ≤ S2000x100.size a
  h_S2000x100 : 0 < S2000x100.numel
  bcast_S1650000x1_S1650000x100_0_1 : S1650000x1.BroadcastsInDim S1650000x100 (![0, 1] : Fin 2 → Fin S1650000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  shapeCasts_S2000x100_S2000x100 : S2000x100.ShapeCasts S2000x100
  inb_S100x50_S100x50_0_0 : ∀ a, (![0, 0] : Fin 2 → Nat) a + S100x50.size a ≤ S100x50.size a
  h_S100x50 : 0 < S100x50.numel
  inb_S2000x50_S2000x50_0_0 : ∀ a, (![0, 0] : Fin 2 → Nat) a + S2000x50.size a ≤ S2000x50.size a
  h_S2000x50 : 0 < S2000x50.numel
  bcast_S1650000x1_S1650000x50_0_1 : S1650000x1.BroadcastsInDim S1650000x50 (![0, 1] : Fin 2 → Fin S1650000x50.rank)
  bcast_S_S50000x50 : S_.BroadcastsInDim S50000x50 (![] : Fin 0 → Fin S50000x50.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  shapeCasts_S2000x50_S2000x50 : S2000x50.ShapeCasts S2000x50
  inb_S50x7_S50x7_0_0 : ∀ a, (![0, 0] : Fin 2 → Nat) a + S50x7.size a ≤ S50x7.size a
  h_S50x7 : 0 < S50x7.numel
  inb_S2000x7_S2000x7_0_0 : ∀ a, (![0, 0] : Fin 2 → Nat) a + S2000x7.size a ≤ S2000x7.size a
  h_S2000x7 : 0 < S2000x7.numel
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x1433_S1433x100_S2000x100_1_0_0_1_n_n_wf : DotDims.WF S2000x1433 S1433x100 S2000x100 [1] [0] [0] [1] [] []
  gather_S50000x100_S1650000x1_S1650000x100_1_0_n_n_0_1_1100_wf : GatherDims.WF S50000x100 S1650000x1 S1650000x100 [1] [0] [] [0] [] 1 ![1, 100]
  scatter_S50000x100_S1650000x1_S1650000x100_1_0_0_1_wf : ScatterDims.WF S50000x100 S1650000x1 S1650000x100 [1] [0] [0] 1
  dot_S2000x100_S100x50_S2000x50_1_0_0_1_n_n_wf : DotDims.WF S2000x100 S100x50 S2000x50 [1] [0] [0] [1] [] []
  gather_S50000x50_S1650000x1_S1650000x50_1_0_n_n_0_1_150_wf : GatherDims.WF S50000x50 S1650000x1 S1650000x50 [1] [0] [] [0] [] 1 ![1, 50]
  scatter_S50000x50_S1650000x1_S1650000x50_1_0_0_1_wf : ScatterDims.WF S50000x50 S1650000x1 S1650000x50 [1] [0] [0] 1
  dot_S2000x50_S50x7_S2000x7_1_0_0_1_n_n_wf : DotDims.WF S2000x50 S50x7 S2000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .f32 = 32 ∨ (Rect.block (s := S50000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x100.size a ≤ S1433x100.size a
  hwx0_1 : ∀ i : grid0.Coords, EltTy.bits .f32 = 32 ∨ (Rect.block (s := S1433x100) S1433x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x100.size a ≤ S50000x100.size a
  hwx0_2 : ∀ i : grid0.Coords, EltTy.bits .f32 = 32 ∨ (Rect.block (s := S50000x100) S2000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x100.size a ≤ S50000x100.size a
  hwx1_0 : ∀ i : grid1.Coords, EltTy.bits .f32 = 32 ∨ (Rect.block (s := S50000x100) S2000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x50.size a ≤ S100x50.size a
  hwx1_1 : ∀ i : grid1.Coords, EltTy.bits .f32 = 32 ∨ (Rect.block (s := S100x50) S100x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x50.size a ≤ S50000x50.size a
  hwx1_2 : ∀ i : grid1.Coords, EltTy.bits .f32 = 32 ∨ (Rect.block (s := S50000x50) S2000x50.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x50.size a ≤ S50000x50.size a
  hwx2_0 : ∀ i : grid2.Coords, EltTy.bits .f32 = 32 ∨ (Rect.block (s := S50000x50) S2000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S50x7.size a ≤ S50x7.size a
  hwx2_1 : ∀ i : grid2.Coords, EltTy.bits .f32 = 32 ∨ (Rect.block (s := S50x7) S50x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S50000x7.size a
  hwx2_2 : ∀ i : grid2.Coords, EltTy.bits .f32 = 32 ∨ (Rect.block (s := S50000x7) S2000x7.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x1433_S1433x100_S2000x100_1_0_0_1_n_n : DotDims S2000x1433 S1433x100 S2000x100 where
  lhsContracting := [1]
  rhsContracting := [0]
  lhsNonContracting := [0]
  rhsNonContracting := [1]
  lhsBatch := []
  rhsBatch := []
  wf := dot_S2000x1433_S1433x100_S2000x100_1_0_0_1_n_n_wf
def gather_S50000x100_S1650000x1_S1650000x100_1_0_n_n_0_1_1100 : GatherDims S50000x100 S1650000x1 S1650000x100 where
  offsetDims := [1]
  collapsedSliceDims := [0]
  operandBatchingDims := []
  startIndicesBatchingDims := []
  startIndexMap := [0]
  indexVectorDim := 1
  sliceSizes := ![1, 100]
  wf := gather_S50000x100_S1650000x1_S1650000x100_1_0_n_n_0_1_1100_wf
def scatter_S50000x100_S1650000x1_S1650000x100_1_0_0_1 : ScatterDims S50000x100 S1650000x1 S1650000x100 where
  updateWindowDims := [1]
  insertedWindowDims := [0]
  scatterDimsToOperandDims := [0]
  indexVectorDim := 1
  wf := scatter_S50000x100_S1650000x1_S1650000x100_1_0_0_1_wf
def dot_S2000x100_S100x50_S2000x50_1_0_0_1_n_n : DotDims S2000x100 S100x50 S2000x50 where
  lhsContracting := [1]
  rhsContracting := [0]
  lhsNonContracting := [0]
  rhsNonContracting := [1]
  lhsBatch := []
  rhsBatch := []
  wf := dot_S2000x100_S100x50_S2000x50_1_0_0_1_n_n_wf
def gather_S50000x50_S1650000x1_S1650000x50_1_0_n_n_0_1_150 : GatherDims S50000x50 S1650000x1 S1650000x50 where
  offsetDims := [1]
  collapsedSliceDims := [0]
  operandBatchingDims := []
  startIndicesBatchingDims := []
  startIndexMap := [0]
  indexVectorDim := 1
  sliceSizes := ![1, 50]
  wf := gather_S50000x50_S1650000x1_S1650000x50_1_0_n_n_0_1_150_wf
def scatter_S50000x50_S1650000x1_S1650000x50_1_0_0_1 : ScatterDims S50000x50 S1650000x1 S1650000x50 where
  updateWindowDims := [1]
  insertedWindowDims := [0]
  scatterDimsToOperandDims := [0]
  indexVectorDim := 1
  wf := scatter_S50000x50_S1650000x1_S1650000x50_1_0_0_1_wf
def dot_S2000x50_S50x7_S2000x7_1_0_0_1_n_n : DotDims S2000x50 S50x7 S2000x7 where
  lhsContracting := [1]
  rhsContracting := [0]
  lhsNonContracting := [0]
  rhsNonContracting := [1]
  lhsBatch := []
  rhsBatch := []
  wf := dot_S2000x50_S50x7_S2000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S100x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S50x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S2x1600000 : Shape := ⟨2, ![2, 1600000]⟩
abbrev S1433x100 : Shape := ⟨2, ![1433, 100]⟩
abbrev S100 : Shape := ⟨1, ![100]⟩
abbrev S100x50 : Shape := ⟨2, ![100, 50]⟩
abbrev S50 : Shape := ⟨1, ![50]⟩
abbrev S50x7 : Shape := ⟨2, ![50, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x100 : Shape := ⟨2, ![50000, 100]⟩
abbrev S1650000x100 : Shape := ⟨2, ![1650000, 100]⟩
abbrev S1x100 : Shape := ⟨2, ![1, 100]⟩
abbrev S50000x50 : Shape := ⟨2, ![50000, 50]⟩
abbrev S1650000x50 : Shape := ⟨2, ![1650000, 50]⟩
abbrev S1x50 : Shape := ⟨2, ![1, 50]⟩
abbrev S50000x7 : Shape := ⟨2, ![50000, 7]⟩
abbrev S1650000x7 : Shape := ⟨2, ![1650000, 7]⟩
abbrev S1x7 : Shape := ⟨2, ![1, 7]⟩

abbrev nBuf : Space → Nat
  | .hbm => 120
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x100, .f32⟩
  | .hbm, ⟨3, _⟩ => ⟨S100, .f32⟩
  | .hbm, ⟨4, _⟩ => ⟨S100x50, .f32⟩
  | .hbm, ⟨5, _⟩ => ⟨S50, .f32⟩
  | .hbm, ⟨6, _⟩ => ⟨S50x7, .f32⟩
  | .hbm, ⟨7, _⟩ => ⟨S7, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x100, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x100, .f32⟩
  | .hbm, ⟨61, _⟩ => ⟨S1650000x1, .f32⟩
  | .hbm, ⟨62, _⟩ => ⟨S1650000x100, .f32⟩
  | .hbm, ⟨63, _⟩ => ⟨S1650000x100, .f32⟩
  | .hbm, ⟨64, _⟩ => ⟨S_, .f32⟩
  | .hbm, ⟨65, _⟩ => ⟨S50000x100, .f32⟩
  | .hbm, ⟨66, _⟩ => ⟨S1650000x1, .i32⟩
  | .hbm, ⟨67, _⟩ => ⟨S50000x100, .f32⟩
  | .hbm, ⟨68, _⟩ => ⟨S1x100, .f32⟩
  | .hbm, ⟨69, _⟩ => ⟨S50000x100, .f32⟩
  | .hbm, ⟨70, _⟩ => ⟨S50000x100, .f32⟩
  | .hbm, ⟨71, _⟩ => ⟨S_, .f32⟩
  | .hbm, ⟨72, _⟩ => ⟨S50000x100, .f32⟩
  | .hbm, ⟨73, _⟩ => ⟨S50000x100, .f32⟩
  | .hbm, ⟨74, _⟩ => ⟨S50000x50, .f32⟩
  | .hbm, ⟨75, _⟩ => ⟨S_, .i32⟩
  | .hbm, ⟨76, _⟩ => ⟨S1650000, .i32⟩
  | .hbm, ⟨77, _⟩ => ⟨S1650000, .i1⟩
  | .hbm, ⟨78, _⟩ => ⟨S_, .i32⟩
  | .hbm, ⟨79, _⟩ => ⟨S1650000, .i32⟩
  | .hbm, ⟨80, _⟩ => ⟨S1650000, .i32⟩
  | .hbm, ⟨81, _⟩ => ⟨S1650000, .i32⟩
  | .hbm, ⟨82, _⟩ => ⟨S1650000x1, .i32⟩
  | .hbm, ⟨83, _⟩ => ⟨S1650000x50, .f32⟩
  | .hbm, ⟨84, _⟩ => ⟨S1650000x1, .f32⟩
  | .hbm, ⟨85, _⟩ => ⟨S1650000x50, .f32⟩
  | .hbm, ⟨86, _⟩ => ⟨S1650000x50, .f32⟩
  | .hbm, ⟨87, _⟩ => ⟨S_, .f32⟩
  | .hbm, ⟨88, _⟩ => ⟨S50000x50, .f32⟩
  | .hbm, ⟨89, _⟩ => ⟨S1650000x1, .i32⟩
  | .hbm, ⟨90, _⟩ => ⟨S50000x50, .f32⟩
  | .hbm, ⟨91, _⟩ => ⟨S1x50, .f32⟩
  | .hbm, ⟨92, _⟩ => ⟨S50000x50, .f32⟩
  | .hbm, ⟨93, _⟩ => ⟨S50000x50, .f32⟩
  | .hbm, ⟨94, _⟩ => ⟨S_, .f32⟩
  | .hbm, ⟨95, _⟩ => ⟨S50000x50, .f32⟩
  | .hbm, ⟨96, _⟩ => ⟨S50000x50, .f32⟩
  | .hbm, ⟨97, _⟩ => ⟨S50000x7, .f32⟩
  | .hbm, ⟨98, _⟩ => ⟨S_, .i32⟩
  | .hbm, ⟨99, _⟩ => ⟨S1650000, .i32⟩
  | .hbm, ⟨100, _⟩ => ⟨S1650000, .i1⟩
  | .hbm, ⟨101, _⟩ => ⟨S_, .i32⟩
  | .hbm, ⟨102, _⟩ => ⟨S1650000, .i32⟩
  | .hbm, ⟨103, _⟩ => ⟨S1650000, .i32⟩
  | .hbm, ⟨104, _⟩ => ⟨S1650000, .i32⟩
  | .hbm, ⟨105, _⟩ => ⟨S1650000x1, .i32⟩
  | .hbm, ⟨106, _⟩ => ⟨S1650000x7, .f32⟩
  | .hbm, ⟨107, _⟩ => ⟨S1650000x1, .f32⟩
  | .hbm, ⟨108, _⟩ => ⟨S1650000x7, .f32⟩
  | .hbm, ⟨109, _⟩ => ⟨S1650000x7, .f32⟩
  | .hbm, ⟨110, _⟩ => ⟨S_, .f32⟩
  | .hbm, ⟨111, _⟩ => ⟨S50000x7, .f32⟩
  | .hbm, ⟨112, _⟩ => ⟨S1650000x1, .i32⟩
  | .hbm, ⟨113, _⟩ => ⟨S50000x7, .f32⟩
  | .hbm, ⟨114, _⟩ => ⟨S1x7, .f32⟩
  | .hbm, ⟨115, _⟩ => ⟨S50000x7, .f32⟩
  | .hbm, ⟨116, _⟩ => ⟨S50000x7, .f32⟩
  | .hbm, ⟨117, _⟩ => ⟨S_, .f32⟩
  | .hbm, ⟨118, _⟩ => ⟨S50000x7, .f32⟩
  | .hbm, ⟨119, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x100_0_1 : S1650000x1.BroadcastsInDim S1650000x100 (![0, 1] : Fin 2 → Fin S1650000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S1650000x1_S1650000x50_0_1 : S1650000x1.BroadcastsInDim S1650000x50 (![0, 1] : Fin 2 → Fin S1650000x50.rank)
  bcast_S_S50000x50 : S_.BroadcastsInDim S50000x50 (![] : Fin 0 → Fin S50000x50.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x1433_S1433x100_S50000x100_1_0_0_1_n_n_wf : DotDims.WF S50000x1433 S1433x100 S50000x100 [1] [0] [0] [1] [] []
  gather_S50000x100_S1650000x1_S1650000x100_1_0_n_n_0_1_1100_wf : GatherDims.WF S50000x100 S1650000x1 S1650000x100 [1] [0] [] [0] [] 1 ![1, 100]
  scatter_S50000x100_S1650000x1_S1650000x100_1_0_0_1_wf : ScatterDims.WF S50000x100 S1650000x1 S1650000x100 [1] [0] [0] 1
  dot_S50000x100_S100x50_S50000x50_1_0_0_1_n_n_wf : DotDims.WF S50000x100 S100x50 S50000x50 [1] [0] [0] [1] [] []
  gather_S50000x50_S1650000x1_S1650000x50_1_0_n_n_0_1_150_wf : GatherDims.WF S50000x50 S1650000x1 S1650000x50 [1] [0] [] [0] [] 1 ![1, 50]
  scatter_S50000x50_S1650000x1_S1650000x50_1_0_0_1_wf : ScatterDims.WF S50000x50 S1650000x1 S1650000x50 [1] [0] [0] 1
  dot_S50000x50_S50x7_S50000x7_1_0_0_1_n_n_wf : DotDims.WF S50000x50 S50x7 S50000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x1433_S1433x100_S50000x100_1_0_0_1_n_n : DotDims S50000x1433 S1433x100 S50000x100 where
  lhsContracting := [1]
  rhsContracting := [0]
  lhsNonContracting := [0]
  rhsNonContracting := [1]
  lhsBatch := []
  rhsBatch := []
  wf := dot_S50000x1433_S1433x100_S50000x100_1_0_0_1_n_n_wf
def gather_S50000x100_S1650000x1_S1650000x100_1_0_n_n_0_1_1100 : GatherDims S50000x100 S1650000x1 S1650000x100 where
  offsetDims := [1]
  collapsedSliceDims := [0]
  operandBatchingDims := []
  startIndicesBatchingDims := []
  startIndexMap := [0]
  indexVectorDim := 1
  sliceSizes := ![1, 100]
  wf := gather_S50000x100_S1650000x1_S1650000x100_1_0_n_n_0_1_1100_wf
def scatter_S50000x100_S1650000x1_S1650000x100_1_0_0_1 : ScatterDims S50000x100 S1650000x1 S1650000x100 where
  updateWindowDims := [1]
  insertedWindowDims := [0]
  scatterDimsToOperandDims := [0]
  indexVectorDim := 1
  wf := scatter_S50000x100_S1650000x1_S1650000x100_1_0_0_1_wf
def dot_S50000x100_S100x50_S50000x50_1_0_0_1_n_n : DotDims S50000x100 S100x50 S50000x50 where
  lhsContracting := [1]
  rhsContracting := [0]
  lhsNonContracting := [0]
  rhsNonContracting := [1]
  lhsBatch := []
  rhsBatch := []
  wf := dot_S50000x100_S100x50_S50000x50_1_0_0_1_n_n_wf
def gather_S50000x50_S1650000x1_S1650000x50_1_0_n_n_0_1_150 : GatherDims S50000x50 S1650000x1 S1650000x50 where
  offsetDims := [1]
  collapsedSliceDims := [0]
  operandBatchingDims := []
  startIndicesBatchingDims := []
  startIndexMap := [0]
  indexVectorDim := 1
  sliceSizes := ![1, 50]
  wf := gather_S50000x50_S1650000x1_S1650000x50_1_0_n_n_0_1_150_wf
def scatter_S50000x50_S1650000x1_S1650000x50_1_0_0_1 : ScatterDims S50000x50 S1650000x1 S1650000x50 where
  updateWindowDims := [1]
  insertedWindowDims := [0]
  scatterDimsToOperandDims := [0]
  indexVectorDim := 1
  wf := scatter_S50000x50_S1650000x1_S1650000x50_1_0_0_1_wf
def dot_S50000x50_S50x7_S50000x7_1_0_0_1_n_n : DotDims S50000x50 S50x7 S50000x7 where
  lhsContracting := [1]
  rhsContracting := [0]
  lhsNonContracting := [0]
  rhsNonContracting := [1]
  lhsBatch := []
  rhsBatch := []
  wf := dot_S50000x50_S50x7_S50000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

class Facts : Prop extends Facts₀ where

variable [Facts]
-- ==== Proof.KernelRun.lean ====
/-
  The idealized kernel program's run, with its result named.

  The program is twelve segments in a row: stretches of host operations and three pipelined matrix products. Run
  from any memory, every fair execution ends with every buffer that outlives the regions at the contents the
  segments' fold leaves there; read at the result buffer this names the result, and read at the eight argument
  buffers it says they end as launched.
-/
import proofs.«136865_j77223511982296_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the program terminates without a fault; the result buffer ends at what the last
    segment's fold leaves in it, and each argument buffer as launched. -/
theorem run_result : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Gen

end
-- ==== Proof.Stretches.lean ====
/-
  The four outlined functions of the idealized kernel program, each as one function of what it reads.

  The program calls four small functions: a select against a broadcast scalar (the guard around the reciprocal square
  root of the degrees) and, after each layer, a clamp at zero. Each is three host operations on buffers of its own.
  From ANY buffer contents, what the call leaves in its result buffer is the plain operation of the contents of the
  buffers it reads: the moves between a call's typed references and the buffers behind them are identities.
-/
import proofs.«136865_j77223511982296_1_alg».proof.Proof.Gen.KernelIdeal.Frame
import Idealize.ShloMosaic.Lib.StableHlo.Run
import Idealize.ShloMosaic.PureOps.Ideal

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

/-- The guarded reciprocal square root: where the flag holds the first operand, elsewhere the broadcast scalar. -/
theorem where_stretch (V : Valuation τ sig (Elt Ideal)) :
    StableHlo.after (hostOps0_1 (F := Ideal)) V (Proc.devRef .tc main_v16)
      = select (V (Proc.devRef .tc main_v12)) (V (Proc.devRef .tc main_v15))
          (broadcastInDim S50000 ![] bcast_S_S50000 (id (V (Proc.devRef .tc main_cst_3)))) := by
  dsimp only [hostOps0_1]
  after_results
  rfl

/-- The clamp at zero after the first layer. -/
theorem relu1_stretch (V : Valuation τ sig (Elt Ideal)) :
    StableHlo.after (hostOps1_1 (F := Ideal)) V (Proc.devRef .tc main_v49)
      = maximumf (V (Proc.devRef .tc main_v48)) (broadcastInDim S50000x100 ![] bcast_S_S50000x100 (constant (F := Ideal) S_ .f32 0x00000000#32)) := by
  dsimp only [hostOps1_1]
  after_results
  rfl

/-- The clamp at zero after the second layer. -/
theorem relu2_stretch (V : Valuation τ sig (Elt Ideal)) :
    StableHlo.after (hostOps2_1 (F := Ideal)) V (Proc.devRef .tc main_v67)
      = maximumf (V (Proc.devRef .tc main_v66)) (broadcastInDim S50000x50 ![] bcast_S_S50000x50 (constant (F := Ideal) S_ .f32 0x00000000#32)) := by
  dsimp only [hostOps2_1]
  after_results
  rfl

/-- The clamp at zero after the third layer. -/
theorem relu3_stretch (V : Valuation τ sig (Elt Ideal)) :
    StableHlo.after (hostOps3_1 (F := Ideal)) V (Proc.devRef .tc main_v85)
      = maximumf (V (Proc.devRef .tc main_v84)) (broadcastInDim S50000x7 ![] bcast_S_S50000x7 (constant (F := Ideal) S_ .f32 0x00000000#32)) := by
  dsimp only [hostOps3_1]
  after_results
  rfl

end Cert.KernelIdeal.Stages

end
-- ==== Proof.StagePrelude.lean ====
/-
  The graph's normalization, as the idealized kernel program computes it before its first matrix product.

  From the edge list the program builds the source and destination index vectors (each edge row followed by one self
  loop per node), counts each node's in-degree by scattering ones, takes the reciprocal square root of the positive
  degrees (zero elsewhere) and multiplies the two endpoint factors of every edge. These are integer and float host
  operations only; read back from the fold of the host operations one stretch at a time, each vector is the same
  function of the edge list that the reference's stage of the same name computes, operation for operation. No host
  operation writes an argument array.
-/
import proofs.«136865_j77223511982296_1_alg».proof.Proof.Gen.KernelIdeal.Frame
import proofs.«136865_j77223511982296_1_alg».proof.Proof.RefReadP
import proofs.«136865_j77223511982296_1_alg».proof.Proof.Stretches
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg)

/-- At the first product's entry an argument array holds its launch contents. -/
macro "entry_arg" : tactic =>
  `(tactic| (dsimp only [W3, W2, W1, hostOps0, hostOps0_1, hostOps0_2]; after_results_simp <;> rfl))

theorem arg0_entry (c : Dev nD) : W3 m ρ c (Proc.devRef .tc main_arg0) = (m ((c : Thread nD τ).loc main_arg0)) := by entry_arg
theorem arg2_entry (c : Dev nD) : W3 m ρ c (Proc.devRef .tc main_arg2) = (m ((c : Thread nD τ).loc main_arg2)) := by entry_arg
theorem arg3_entry (c : Dev nD) : W3 m ρ c (Proc.devRef .tc main_arg3) = (m ((c : Thread nD τ).loc main_arg3)) := by entry_arg
theorem arg4_entry (c : Dev nD) : W3 m ρ c (Proc.devRef .tc main_arg4) = (m ((c : Thread nD τ).loc main_arg4)) := by entry_arg
theorem arg5_entry (c : Dev nD) : W3 m ρ c (Proc.devRef .tc main_arg5) = (m ((c : Thread nD τ).loc main_arg5)) := by entry_arg
theorem arg6_entry (c : Dev nD) : W3 m ρ c (Proc.devRef .tc main_arg6) = (m ((c : Thread nD τ).loc main_arg6)) := by entry_arg
theorem arg7_entry (c : Dev nD) : W3 m ρ c (Proc.devRef .tc main_arg7) = (m ((c : Thread nD τ).loc main_arg7)) := by entry_arg

/-! ### After the first stretch: index vectors, the degree test, the reciprocal square root -/

/-- One value the first stretch computes, against the reference's stage. -/
macro "first_stretch" : tactic =>
  `(tactic| (dsimp only [W1, hostOps0]; after_results_simp <;> rfl))

theorem src_w1 (c : Dev nD) : W1 m ρ c (Proc.devRef .tc main_v3) = val_main_v3 (F := Ideal) (m ((c : Thread nD τ).loc main_arg1)) := by first_stretch
theorem dst_w1 (c : Dev nD) : W1 m ρ c (Proc.devRef .tc main_v6) = val_main_v6 (F := Ideal) (m ((c : Thread nD τ).loc main_arg1)) := by first_stretch
theorem positive_w1 (c : Dev nD) : W1 m ρ c (Proc.devRef .tc main_v12) = val_main_v12 (F := Ideal) (m ((c : Thread nD τ).loc main_arg1)) := by first_stretch
theorem rsqrt_w1 (c : Dev nD) : W1 m ρ c (Proc.devRef .tc main_v15) = val_main_v15 (F := Ideal) (m ((c : Thread nD τ).loc main_arg1)) := by first_stretch
theorem zero_w1 (c : Dev nD) : W1 m ρ c (Proc.devRef .tc main_cst_3) = val_main_cst_3 (F := Ideal) := by first_stretch

/-! ### After the guard: d^(-1/2) where the degree is positive, zero elsewhere -/

theorem dinv_w2 (c : Dev nD) : W2 m ρ c (Proc.devRef .tc main_v16) = val_main_v16 (F := Ideal) (m ((c : Thread nD τ).loc main_arg1)) := by
  refine (where_stretch (W1 m ρ c)).trans ?_
  rw [positive_w1 m ρ c, rsqrt_w1 m ρ c, zero_w1 m ρ c]
  rfl

theorem src_w2 (c : Dev nD) : W2 m ρ c (Proc.devRef .tc main_v3) = val_main_v3 (F := Ideal) (m ((c : Thread nD τ).loc main_arg1)) := by
  have h := src_w1 m ρ c
  dsimp only [W2]
  generalize W1 m ρ c = V at h ⊢
  dsimp only [hostOps0_1]
  after_results_simp
  exact h

theorem dst_w2 (c : Dev nD) : W2 m ρ c (Proc.devRef .tc main_v6) = val_main_v6 (F := Ideal) (m ((c : Thread nD τ).loc main_arg1)) := by
  have h := dst_w1 m ρ c
  dsimp only [W2]
  generalize W1 m ρ c = V at h ⊢
  dsimp only [hostOps0_1]
  after_results_simp
  exact h

/-! ### At the first product's entry -/

set_option maxHeartbeats 4000000 in
/-- The weight of every edge: the product of its endpoints' inverse square-root degrees. -/
theorem norm_entry (c : Dev nD) : W3 m ρ c (Proc.devRef .tc main_v31) = val_main_v31 (F := Ideal) (m ((c : Thread nD τ).loc main_arg1)) := by
  have h16 := dinv_w2 m ρ c
  have h3 := src_w2 m ρ c
  have h6 := dst_w2 m ρ c
  dsimp only [W3]
  generalize W2 m ρ c = V at h16 h3 h6 ⊢
  dsimp only [hostOps0_2]
  after_results_simp
  rw [h16, h3, h6]
  rfl

/-- The source index of every edge, self loops appended. -/
theorem src_entry (c : Dev nD) : W3 m ρ c (Proc.devRef .tc main_v3) = val_main_v3 (F := Ideal) (m ((c : Thread nD τ).loc main_arg1)) := by
  have h := src_w2 m ρ c
  dsimp only [W3]
  generalize W2 m ρ c = V at h ⊢
  dsimp only [hostOps0_2]
  after_results_simp
  exact h

/-- The destination index of every edge, self loops appended. -/
theorem dst_entry (c : Dev nD) : W3 m ρ c (Proc.devRef .tc main_v6) = val_main_v6 (F := Ideal) (m ((c : Thread nD τ).loc main_arg1)) := by
  have h := dst_w2 m ρ c
  dsimp only [W3]
  generalize W2 m ρ c = V at h ⊢
  dsimp only [hostOps0_2]
  after_results_simp
  exact h

end Cert.KernelIdeal.Stages

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«136865_j77223511982296_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowTiles.lean ====
/-
  A matrix product computed one tile of rows at a time.

  Split the rows of an [M, K] matrix into tiles of R consecutive rows. The tile that starts at row o, multiplied by a
  whole [K, B] matrix, gives rows o … o + R − 1 of the whole product: entry (r, e) of the tile's product and entry
  (o + r, e) of the whole product are the same sum over k of L(o + r, k) · W(k, e). Stated with the tile and the
  right factor given by what they read — the tile's entry (r, k) is the matrix's entry (o + r, k), the factor's entry
  is the whole factor's entry — so that it applies to blocks fetched through a window. On the ideal values the
  kernel's `tpu.matmul` into a zero accumulator and the host's `dot_general` are both that sum, whatever element
  formats the operands carry and whatever precision or schedule is asked for.
-/
import Idealize.ShloMosaic.PureOps.Ideal.Laws
import Idealize.ShloMosaic.Lib.ValueIdx
import proofs.«136865_j77223511982296_1_alg».proof.Proof.LibPlainMatmul
import proofs.«136865_j77223511982296_1_alg».proof.Proof.LibPlainDot

noncomputable section

namespace Cert.LibRowTiles

open Idealize.ShloMosaic Idealize.ShloMosaic.ValueIdx

/-- Entry (r, e) of the product of a row tile with the right factor is entry (o + r, e) of the whole product. -/
theorem tile_product_eq (M K B R : Nat) {φ₁ φ₂ ψ₁ ψ₂ : FTy} (prec prec' : Option ContractPrecision) (sched : HostSchedule)
    (a : FVec Ideal ⟨2, ![M, K]⟩ φ₁) (w : FVec Ideal ⟨2, ![K, B]⟩ φ₂)
    (xa : FVec Ideal ⟨2, ![R, K]⟩ ψ₁) (xw : FVec Ideal ⟨2, ![K, B]⟩ ψ₂)
    (r : Fin R) (e : Fin B) (row : Fin M)
    (hxa : ∀ k : Fin K, xa (ix2 r k) = a (ix2 row k))
    (hxw : ∀ k : Fin K, xw (ix2 k e) = w (ix2 k e)) :
    FloatOps.matmul (DotDims.plain R K B) prec xa xw (constant ⟨2, ![R, B]⟩ .f32 0x00000000#32) (ix2 r e)
      = FloatOps.dotGeneral (DotDims.plain M K B) prec' sched a w (ix2 row e) := by
  rw [matmul_plain_zero_apply, Cert.LibPlainDot.dotGeneral_plain_apply]
  exact Finset.sum_congr rfl fun k _ => by rw [hxa k, hxw k]

end Cert.LibRowTiles

end
-- ==== Proof.Transform0.lean ====
/-
  The first dense transform, computed by the pipelined kernel, as one matrix product.

  The kernel walks the 50000 rows of its left operand in 25 tiles of 2000 rows. At tile t it holds rows
  2000·t … 2000·t + 1999 of the left operand and the whole [1433, 100] right operand, multiplies them (the operands are
  narrowed to bf16 on the way in, which changes nothing on the ideal values) and writes the [2000, 100] product back as
  rows 2000·t … 2000·t + 1999 of the result. Row r of tile t is row 2000·t + r of the whole product, entry by entry the same sum over
  the 1433 contracted coordinates; the 25 tiles cover every row, so the result array ends holding the whole product
  of the two arrays as the region found them.
-/
import proofs.«136865_j77223511982296_1_alg».proof.Proof.Gen.KernelIdeal.Frame
import proofs.«136865_j77223511982296_1_alg».proof.Proof.LibRowTiles
import Idealize.ShloMosaic.Lib.Pipeline.Value
import Idealize.ShloMosaic.Lib.ValueIdx

set_option maxRecDepth 16384

noncomputable section

namespace Cert.KernelIdeal.Transform0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The whole product the region computes: the host's plain [50000, 1433] × [1433, 100] product. -/
abbrev product (a : S50000x1433.Idx → Ideal .f32) (w : S1433x100.Idx → Ideal .f32) : S50000x100.Idx → Ideal .f32 :=
  FloatOps.dotGeneral (DotDims.plain 50000 1433 100) none .single a w

theorem origin : (![0, 0] : Fin 2 → Nat) = fun _ => 0 := funext fun a => by fin_cases a <;> rfl

/-- The body's stored value at (p, q), from a row tile `x0` and a right operand `x1` that read entry by entry as rows
    of `a` and as `w`: the whole product's entry in the tile's row. -/
theorem tile_entry (a : S50000x1433.Idx → Ideal .f32) (w : S1433x100.Idx → Ideal .f32)
    (x0 : Vec Ideal S2000x1433 .f32) (x1 : Vec Ideal S1433x100 .f32) (p : Fin 2000) (q : Fin 100) (row : Fin 50000)
    (hx0 : ∀ k : Fin 1433, x0 (ix2 p k) = a (ix2 row k)) (hx1 : ∀ k : Fin 1433, x1 (ix2 k q) = w (ix2 k q)) :
    k0_pay1 (F := Ideal) x0 x1 (ix2 p q) = product a w (ix2 row q) := by
  unfold k0_pay1
  try dsimp only
  exact Cert.LibRowTiles.tile_product_eq 50000 1433 100 2000 none none .single a w _ _ p q row hx0 hx1

/-- The index maps over the grid: the left operand's and the result's tile sit at block row t, column block 0; the
    right operand at block (0, 0). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What tile t writes back is block t of the whole product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S2000x1433) origin, View.ld_unit_zero (S := S1433x100) origin]
  obtain ⟨e0, e1, e2, e3, e4, e5⟩ := block_positions t
  have ht : t.val < 25 := by have h := t.isLt; have hN : cfg0.N = 25 := N_0; omega
  funext j
  obtain ⟨p, q, rfl⟩ : ∃ (p : Fin 2000) (q : Fin 100), j = ix2 p q := ⟨j 0, j 1, eq_ix2 j⟩
  have hrow : t.val * 2000 + p.val < 50000 := by have := p.isLt; omega
  show k0_pay1 (F := Ideal) (iblk0 V c 0 t) (iblk0 V c 1 t) (ix2 p q)
    = product (V c main_arg0) (V c main_arg2) (((cfg0.win 2).blk t).view.emb (ix2 p q))
  have hout : ((cfg0.win 2).blk t).view.emb (ix2 p q) = ix2 (⟨t.val * 2000 + p.val, hrow⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 100 + 1 * q.val = q.val; omega
  rw [hout]
  refine tile_entry (V c main_arg0) (V c main_arg2) (iblk0 V c 0 t) (iblk0 V c 1 t) p q ⟨t.val * 2000 + p.val, hrow⟩ ?_ ?_
  · intro k
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 1433 + 1 * k.val = k.val; omega
  · intro k
    show V c main_arg2 (((cfg0.win 1).blk t).view.emb (ix2 k q)) = _
    refine congrArg (V c main_arg2) ?_
    funext a; apply Fin.ext
    match a with
    | ⟨0, _⟩ => show win0_1.index t (0 : Fin 2) * 1433 + 1 * k.val = k.val; omega
    | ⟨1, _⟩ => show win0_1.index t (1 : Fin 2) * 100 + 1 * q.val = q.val; omega

/-- An index of the result array is in tile t's block iff each coordinate is in the block's range on its axis. -/
theorem mem_block (t : Fin cfg0.N) (i : S50000x100.Idx) :
    i ∈ ((cfg0.win 2).blk t).view.set ↔ ∀ a : Fin 2, win0_2.index t a * S2000x100.size a ≤ (i a).val ∧ (i a).val < win0_2.index t a * S2000x100.size a + S2000x100.size a := by
  show i ∈ ((View.whole main_v32).slice (win0_2.rect t)).set ↔ _
  rw [View.set_slice_whole, Rect.mem_set_unit]
  exact Iff.rfl

/-- Every row of the result is in the tile numbered by its row divided by 2000. -/
theorem covered (i : S50000x100.Idx) :
    ∃ t : Fin cfg0.N, (cfg0.win 2).flush t = true ∧ i ∈ ((cfg0.win 2).blk t).view.set := by
  have h0 : (i 0).val < 50000 := (i 0).isLt
  have h1 : (i 1).val < 100 := (i 1).isLt
  have hN : cfg0.N = 25 := N_0
  let t : Fin cfg0.N := ⟨(i 0).val / 2000, by rw [hN]; omega⟩
  refine ⟨t, flush0_2 t, ?_⟩
  rw [mem_block]
  obtain ⟨e0, e1, e2, e3, e4, e5⟩ := block_positions t
  have ht : t.val = (i 0).val / 2000 := rfl
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 100 ≤ (i 1).val ∧ (i 1).val < win0_2.index t (1 : Fin 2) * 100 + 100; omega

/-- The result array after the region: the whole product of the two arrays as the region found them. -/
theorem result (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Transform0

end
-- ==== Proof.StageLayer1.lean ====
/-
  The first graph-convolution layer of the idealized kernel program, read back stage by stage.

  The pipelined kernel leaves in its result array the whole product of the layer's input with its weight matrix (the
  tiles cover the rows). After it the host gathers the product's rows at the edges' sources, scales each by the edge's
  weight, sums them into the edges' destinations, adds the bias and clamps at zero. Read back from the fold of these host
  operations, with the product, the index vectors, the edge weights and the bias at the values established before,
  the layer's output is the reference's stage of the same name: the same operations applied to the same values.
  The index vectors, the edge weights and the later layers' arguments pass through untouched.
-/
import proofs.«136865_j77223511982296_1_alg».proof.Proof.StagePrelude
import proofs.«136865_j77223511982296_1_alg».proof.Proof.Transform0
import proofs.«136865_j77223511982296_1_alg».proof.Proof.Stretches
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg)

/-- The kernel's result array after the region: the product of the layer's input and weight. -/
theorem transform1_value (c : Dev nD) :
    W4 m ρ c (Proc.devRef .tc main_v32) = val_main_v32 (F := Ideal) (m ((c : Thread nD τ).loc main_arg0)) (m ((c : Thread nD τ).loc main_arg2)) := by
  refine (W4_arr m ρ c 2).trans ((Transform0.result (V3 m ρ) c).trans ?_)
  show Transform0.product (W3 m ρ c (Proc.devRef .tc main_arg0)) (W3 m ρ c (Proc.devRef .tc main_arg2)) = _
  rw [arg0_entry m ρ c, arg2_entry m ρ c]
  rfl

/-- What the region leaves as it found it, after the region. -/
theorem src_after1 (c : Dev nD) : W4 m ρ c (Proc.devRef .tc main_v3) = val_main_v3 (F := Ideal) (m ((c : Thread nD τ).loc main_arg1)) :=
  (W4_of_ne m ρ c main_v3 (by decide)).trans (src_entry m ρ c)
theorem dst_after1 (c : Dev nD) : W4 m ρ c (Proc.devRef .tc main_v6) = val_main_v6 (F := Ideal) (m ((c : Thread nD τ).loc main_arg1)) :=
  (W4_of_ne m ρ c main_v6 (by decide)).trans (dst_entry m ρ c)
theorem norm_after1 (c : Dev nD) : W4 m ρ c (Proc.devRef .tc main_v31) = val_main_v31 (F := Ideal) (m ((c : Thread nD τ).loc main_arg1)) :=
  (W4_of_ne m ρ c main_v31 (by decide)).trans (norm_entry m ρ c)
theorem arg3_after1 (c : Dev nD) : W4 m ρ c (Proc.devRef .tc main_arg3) = (m ((c : Thread nD τ).loc main_arg3)) :=
  (W4_of_ne m ρ c main_arg3 (by decide)).trans (arg3_entry m ρ c)
theorem arg4_after1 (c : Dev nD) : W4 m ρ c (Proc.devRef .tc main_arg4) = (m ((c : Thread nD τ).loc main_arg4)) :=
  (W4_of_ne m ρ c main_arg4 (by decide)).trans (arg4_entry m ρ c)
theorem arg5_after1 (c : Dev nD) : W4 m ρ c (Proc.devRef .tc main_arg5) = (m ((c : Thread nD τ).loc main_arg5)) :=
  (W4_of_ne m ρ c main_arg5 (by decide)).trans (arg5_entry m ρ c)
theorem arg6_after1 (c : Dev nD) : W4 m ρ c (Proc.devRef .tc main_arg6) = (m ((c : Thread nD τ).loc main_arg6)) :=
  (W4_of_ne m ρ c main_arg6 (by decide)).trans (arg6_entry m ρ c)
theorem arg7_after1 (c : Dev nD) : W4 m ρ c (Proc.devRef .tc main_arg7) = (m ((c : Thread nD τ).loc main_arg7)) :=
  (W4_of_ne m ρ c main_arg7 (by decide)).trans (arg7_entry m ρ c)

set_option maxHeartbeats 4000000 in
/-- Aggregate over the edges and add the bias: the layer's output before the clamp. -/
theorem aggregate1_value (c : Dev nD) :
    W5 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := by
  have hp := transform1_value m ρ c
  have h3 := src_after1 m ρ c
  have h6 := dst_after1 m ρ c
  have h31 := norm_after1 m ρ c
  have hb := arg3_after1 m ρ c
  dsimp only [W5]
  generalize W4 m ρ c = V at hp h3 h6 h31 hb ⊢
  dsimp only [hostOps1]
  after_results_simp
  rw [hp, h3, h6, h31, hb]
  rfl

/-- The layer's output: the aggregate clamped at zero. -/
theorem hidden1_value (c : Dev nD) :
    W6 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) := by
  refine (relu1_stretch (W5 m ρ c)).trans ?_
  rw [aggregate1_value m ρ c]
  rfl

set_option hygiene false in
/-- What the layer's host operations leave untouched, at the next product's entry. -/
macro "pass_through1" h:ident : tactic =>
  `(tactic| (dsimp only [W6, W5]; generalize W4 m ρ c = V at $h:ident ⊢; dsimp only [hostOps1, hostOps1_1]; after_results_simp; exact $h))

theorem src_entry1 (c : Dev nD) : W6 m ρ c (Proc.devRef .tc main_v3) = val_main_v3 (F := Ideal) (m ((c : Thread nD τ).loc main_arg1)) := by
  have h := src_after1 m ρ c
  pass_through1 h

theorem dst_entry1 (c : Dev nD) : W6 m ρ c (Proc.devRef .tc main_v6) = val_main_v6 (F := Ideal) (m ((c : Thread nD τ).loc main_arg1)) := by
  have h := dst_after1 m ρ c
  pass_through1 h

theorem norm_entry1 (c : Dev nD) : W6 m ρ c (Proc.devRef .tc main_v31) = val_main_v31 (F := Ideal) (m ((c : Thread nD τ).loc main_arg1)) := by
  have h := norm_after1 m ρ c
  pass_through1 h

theorem arg4_entry1 (c : Dev nD) : W6 m ρ c (Proc.devRef .tc main_arg4) = (m ((c : Thread nD τ).loc main_arg4)) := by
  have h := arg4_after1 m ρ c
  pass_through1 h

theorem arg5_entry1 (c : Dev nD) : W6 m ρ c (Proc.devRef .tc main_arg5) = (m ((c : Thread nD τ).loc main_arg5)) := by
  have h := arg5_after1 m ρ c
  pass_through1 h

theorem arg6_entry1 (c : Dev nD) : W6 m ρ c (Proc.devRef .tc main_arg6) = (m ((c : Thread nD τ).loc main_arg6)) := by
  have h := arg6_after1 m ρ c
  pass_through1 h

theorem arg7_entry1 (c : Dev nD) : W6 m ρ c (Proc.devRef .tc main_arg7) = (m ((c : Thread nD τ).loc main_arg7)) := by
  have h := arg7_after1 m ρ c
  pass_through1 h

end Cert.KernelIdeal.Stages

end
-- ==== Proof.Transform1.lean ====
/-
  The second dense transform, computed by the pipelined kernel, as one matrix product.

  The kernel walks the 50000 rows of its left operand in 25 tiles of 2000 rows. At tile t it holds rows
  2000·t … 2000·t + 1999 of the left operand and the whole [100, 50] right operand, multiplies them (the operands are
  narrowed to bf16 on the way in, which changes nothing on the ideal values) and writes the [2000, 50] product back as
  rows 2000·t … 2000·t + 1999 of the result. Row r of tile t is row 2000·t + r of the whole product, entry by entry the same sum over
  the 100 contracted coordinates; the 25 tiles cover every row, so the result array ends holding the whole product
  of the two arrays as the region found them.
-/
import proofs.«136865_j77223511982296_1_alg».proof.Proof.Gen.KernelIdeal.Frame
import proofs.«136865_j77223511982296_1_alg».proof.Proof.LibRowTiles
import Idealize.ShloMosaic.Lib.Pipeline.Value
import Idealize.ShloMosaic.Lib.ValueIdx

set_option maxRecDepth 16384

noncomputable section

namespace Cert.KernelIdeal.Transform1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The whole product the region computes: the host's plain [50000, 100] × [100, 50] product. -/
abbrev product (a : S50000x100.Idx → Ideal .f32) (w : S100x50.Idx → Ideal .f32) : S50000x50.Idx → Ideal .f32 :=
  FloatOps.dotGeneral (DotDims.plain 50000 100 50) none .single a w

theorem origin : (![0, 0] : Fin 2 → Nat) = fun _ => 0 := funext fun a => by fin_cases a <;> rfl

/-- The body's stored value at (p, q), from a row tile `x0` and a right operand `x1` that read entry by entry as rows
    of `a` and as `w`: the whole product's entry in the tile's row. -/
theorem tile_entry (a : S50000x100.Idx → Ideal .f32) (w : S100x50.Idx → Ideal .f32)
    (x0 : Vec Ideal S2000x100 .f32) (x1 : Vec Ideal S100x50 .f32) (p : Fin 2000) (q : Fin 50) (row : Fin 50000)
    (hx0 : ∀ k : Fin 100, x0 (ix2 p k) = a (ix2 row k)) (hx1 : ∀ k : Fin 100, x1 (ix2 k q) = w (ix2 k q)) :
    k1_pay1 (F := Ideal) x0 x1 (ix2 p q) = product a w (ix2 row q) := by
  unfold k1_pay1
  try dsimp only
  rw [shapeCast_self]
  exact Cert.LibRowTiles.tile_product_eq 50000 100 50 2000 none none .single a w _ _ p q row hx0 hx1

/-- The index maps over the grid: the left operand's and the result's tile sit at block row t, column block 0; the
    right operand at block (0, 0). -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What tile t writes back is block t of the whole product of the two arrays as the region finds them. -/
theorem flushed_eq (c : Dev nD) (t : Fin cfg1.N) :
    (dat1 V c).flushed 2 t = ((cfg1.win 2).blk t).view.read (Elt Ideal) (product (V c main_v49) (V c main_arg4)) := by
  show (cfg1.win 2).cut (grid1.coords t) ((dat1 V c).after 2 t) = _
  rw [after1_2]
  unfold out1_2
  rw [View.canon_unit_zero origin]
  simp only [View.ld_unit_zero (S := S2000x100) origin, View.ld_unit_zero (S := S100x50) origin]
  obtain ⟨e0, e1, e2, e3, e4, e5⟩ := block_positions t
  have ht : t.val < 25 := by have h := t.isLt; have hN : cfg1.N = 25 := N_1; omega
  funext j
  obtain ⟨p, q, rfl⟩ : ∃ (p : Fin 2000) (q : Fin 50), j = ix2 p q := ⟨j 0, j 1, eq_ix2 j⟩
  have hrow : t.val * 2000 + p.val < 50000 := by have := p.isLt; omega
  show k1_pay1 (F := Ideal) (iblk1 V c 0 t) (iblk1 V c 1 t) (ix2 p q)
    = product (V c main_v49) (V c main_arg4) (((cfg1.win 2).blk t).view.emb (ix2 p q))
  have hout : ((cfg1.win 2).blk t).view.emb (ix2 p q) = ix2 (⟨t.val * 2000 + p.val, hrow⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 50 + 1 * q.val = q.val; omega
  rw [hout]
  refine tile_entry (V c main_v49) (V c main_arg4) (iblk1 V c 0 t) (iblk1 V c 1 t) p q ⟨t.val * 2000 + p.val, hrow⟩ ?_ ?_
  · intro k
    show V c main_v49 (((cfg1.win 0).blk t).view.emb (ix2 p k)) = _
    refine congrArg (V c main_v49) ?_
    funext a; apply Fin.ext
    match a with
    | ⟨0, _⟩ => show win1_0.index t (0 : Fin 2) * 2000 + 1 * p.val = t.val * 2000 + p.val; omega
    | ⟨1, _⟩ => show win1_0.index t (1 : Fin 2) * 100 + 1 * k.val = k.val; omega
  · intro k
    show V c main_arg4 (((cfg1.win 1).blk t).view.emb (ix2 k q)) = _
    refine congrArg (V c main_arg4) ?_
    funext a; apply Fin.ext
    match a with
    | ⟨0, _⟩ => show win1_1.index t (0 : Fin 2) * 100 + 1 * k.val = k.val; omega
    | ⟨1, _⟩ => show win1_1.index t (1 : Fin 2) * 50 + 1 * q.val = q.val; omega

/-- An index of the result array is in tile t's block iff each coordinate is in the block's range on its axis. -/
theorem mem_block (t : Fin cfg1.N) (i : S50000x50.Idx) :
    i ∈ ((cfg1.win 2).blk t).view.set ↔ ∀ a : Fin 2, win1_2.index t a * S2000x50.size a ≤ (i a).val ∧ (i a).val < win1_2.index t a * S2000x50.size a + S2000x50.size a := by
  show i ∈ ((View.whole main_v50).slice (win1_2.rect t)).set ↔ _
  rw [View.set_slice_whole, Rect.mem_set_unit]
  exact Iff.rfl

/-- Every row of the result is in the tile numbered by its row divided by 2000. -/
theorem covered (i : S50000x50.Idx) :
    ∃ t : Fin cfg1.N, (cfg1.win 2).flush t = true ∧ i ∈ ((cfg1.win 2).blk t).view.set := by
  have h0 : (i 0).val < 50000 := (i 0).isLt
  have h1 : (i 1).val < 50 := (i 1).isLt
  have hN : cfg1.N = 25 := N_1
  let t : Fin cfg1.N := ⟨(i 0).val / 2000, by rw [hN]; omega⟩
  refine ⟨t, flush1_2 t, ?_⟩
  rw [mem_block]
  obtain ⟨e0, e1, e2, e3, e4, e5⟩ := block_positions t
  have ht : t.val = (i 0).val / 2000 := rfl
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 50 ≤ (i 1).val ∧ (i 1).val < win1_2.index t (1 : Fin 2) * 50 + 50; omega

/-- The result array after the region: the whole product of the two arrays as the region found them. -/
theorem result (c : Dev nD) : (dat1 V c).arrAt 2 cfg1.N = product (V c main_v49) (V c main_arg4) :=
  (dat1 V c).arrAt_eq_of_cover 2 (product (V c main_v49) (V c main_arg4)) (fun t _ => flushed_eq V c t) covered

end Cert.KernelIdeal.Transform1

end
-- ==== Proof.StageLayer2.lean ====
/-
  The second graph-convolution layer of the idealized kernel program, read back stage by stage.

  The pipelined kernel leaves in its result array the whole product of the layer's input with its weight matrix (the
  tiles cover the rows). After it the host gathers the product's rows at the edges' sources, scales each by the edge's
  weight, sums them into the edges' destinations, adds the bias and clamps at zero. Read back from the fold of these host
  operations, with the product, the index vectors, the edge weights and the bias at the values established before,
  the layer's output is the reference's stage of the same name: the same operations applied to the same values.
  The index vectors, the edge weights and the later layers' arguments pass through untouched.
-/
import proofs.«136865_j77223511982296_1_alg».proof.Proof.StageLayer1
import proofs.«136865_j77223511982296_1_alg».proof.Proof.Transform1
import proofs.«136865_j77223511982296_1_alg».proof.Proof.Stretches
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg)

/-- The kernel's result array after the region: the product of the layer's input and weight. -/
theorem transform2_value (c : Dev nD) :
    W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Transform1.result (V6 m ρ) c).trans ?_)
  show Transform1.product (W6 m ρ c (Proc.devRef .tc main_v49)) (W6 m ρ c (Proc.devRef .tc main_arg4)) = _
  rw [hidden1_value m ρ c, arg4_entry1 m ρ c]
  rfl

/-- What the region leaves as it found it, after the region. -/
theorem src_after2 (c : Dev nD) : W7 m ρ c (Proc.devRef .tc main_v3) = val_main_v3 (F := Ideal) (m ((c : Thread nD τ).loc main_arg1)) :=
  (W7_of_ne m ρ c main_v3 (by decide)).trans (src_entry1 m ρ c)
theorem dst_after2 (c : Dev nD) : W7 m ρ c (Proc.devRef .tc main_v6) = val_main_v6 (F := Ideal) (m ((c : Thread nD τ).loc main_arg1)) :=
  (W7_of_ne m ρ c main_v6 (by decide)).trans (dst_entry1 m ρ c)
theorem norm_after2 (c : Dev nD) : W7 m ρ c (Proc.devRef .tc main_v31) = val_main_v31 (F := Ideal) (m ((c : Thread nD τ).loc main_arg1)) :=
  (W7_of_ne m ρ c main_v31 (by decide)).trans (norm_entry1 m ρ c)
theorem arg5_after2 (c : Dev nD) : W7 m ρ c (Proc.devRef .tc main_arg5) = (m ((c : Thread nD τ).loc main_arg5)) :=
  (W7_of_ne m ρ c main_arg5 (by decide)).trans (arg5_entry1 m ρ c)
theorem arg6_after2 (c : Dev nD) : W7 m ρ c (Proc.devRef .tc main_arg6) = (m ((c : Thread nD τ).loc main_arg6)) :=
  (W7_of_ne m ρ c main_arg6 (by decide)).trans (arg6_entry1 m ρ c)
theorem arg7_after2 (c : Dev nD) : W7 m ρ c (Proc.devRef .tc main_arg7) = (m ((c : Thread nD τ).loc main_arg7)) :=
  (W7_of_ne m ρ c main_arg7 (by decide)).trans (arg7_entry1 m ρ c)

set_option maxHeartbeats 4000000 in
/-- Aggregate over the edges and add the bias: the layer's output before the clamp. -/
theorem aggregate2_value (c : Dev nD) :
    W8 m ρ c (Proc.devRef .tc main_v66) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hp := transform2_value m ρ c
  have h3 := src_after2 m ρ c
  have h6 := dst_after2 m ρ c
  have h31 := norm_after2 m ρ c
  have hb := arg5_after2 m ρ c
  dsimp only [W8]
  generalize W7 m ρ c = V at hp h3 h6 h31 hb ⊢
  dsimp only [hostOps2]
  after_results_simp
  rw [hp, h3, h6, h31, hb]
  rfl

/-- The layer's output: the aggregate clamped at zero. -/
theorem hidden2_value (c : Dev nD) :
    W9 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (relu2_stretch (W8 m ρ c)).trans ?_
  rw [aggregate2_value m ρ c]
  rfl

set_option hygiene false in
/-- What the layer's host operations leave untouched, at the next product's entry. -/
macro "pass_through2" h:ident : tactic =>
  `(tactic| (dsimp only [W9, W8]; generalize W7 m ρ c = V at $h:ident ⊢; dsimp only [hostOps2, hostOps2_1]; after_results_simp; exact $h))

theorem src_entry2 (c : Dev nD) : W9 m ρ c (Proc.devRef .tc main_v3) = val_main_v3 (F := Ideal) (m ((c : Thread nD τ).loc main_arg1)) := by
  have h := src_after2 m ρ c
  pass_through2 h

theorem dst_entry2 (c : Dev nD) : W9 m ρ c (Proc.devRef .tc main_v6) = val_main_v6 (F := Ideal) (m ((c : Thread nD τ).loc main_arg1)) := by
  have h := dst_after2 m ρ c
  pass_through2 h

theorem norm_entry2 (c : Dev nD) : W9 m ρ c (Proc.devRef .tc main_v31) = val_main_v31 (F := Ideal) (m ((c : Thread nD τ).loc main_arg1)) := by
  have h := norm_after2 m ρ c
  pass_through2 h

theorem arg6_entry2 (c : Dev nD) : W9 m ρ c (Proc.devRef .tc main_arg6) = (m ((c : Thread nD τ).loc main_arg6)) := by
  have h := arg6_after2 m ρ c
  pass_through2 h

theorem arg7_entry2 (c : Dev nD) : W9 m ρ c (Proc.devRef .tc main_arg7) = (m ((c : Thread nD τ).loc main_arg7)) := by
  have h := arg7_after2 m ρ c
  pass_through2 h

end Cert.KernelIdeal.Stages

end
-- ==== Proof.Transform2.lean ====
/-
  The third dense transform, computed by the pipelined kernel, as one matrix product.

  The kernel walks the 50000 rows of its left operand in 25 tiles of 2000 rows. At tile t it holds rows
  2000·t … 2000·t + 1999 of the left operand and the whole [50, 7] right operand, multiplies them (the operands are
  narrowed to bf16 on the way in, which changes nothing on the ideal values) and writes the [2000, 7] product back as
  rows 2000·t … 2000·t + 1999 of the result. Row r of tile t is row 2000·t + r of the whole product, entry by entry the same sum over
  the 50 contracted coordinates; the 25 tiles cover every row, so the result array ends holding the whole product
  of the two arrays as the region found them.
-/
import proofs.«136865_j77223511982296_1_alg».proof.Proof.Gen.KernelIdeal.Frame
import proofs.«136865_j77223511982296_1_alg».proof.Proof.LibRowTiles
import Idealize.ShloMosaic.Lib.Pipeline.Value
import Idealize.ShloMosaic.Lib.ValueIdx

set_option maxRecDepth 16384

noncomputable section

namespace Cert.KernelIdeal.Transform2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The whole product the region computes: the host's plain [50000, 50] × [50, 7] product. -/
abbrev product (a : S50000x50.Idx → Ideal .f32) (w : S50x7.Idx → Ideal .f32) : S50000x7.Idx → Ideal .f32 :=
  FloatOps.dotGeneral (DotDims.plain 50000 50 7) none .single a w

theorem origin : (![0, 0] : Fin 2 → Nat) = fun _ => 0 := funext fun a => by fin_cases a <;> rfl

/-- The body's stored value at (p, q), from a row tile `x0` and a right operand `x1` that read entry by entry as rows
    of `a` and as `w`: the whole product's entry in the tile's row. -/
theorem tile_entry (a : S50000x50.Idx → Ideal .f32) (w : S50x7.Idx → Ideal .f32)
    (x0 : Vec Ideal S2000x50 .f32) (x1 : Vec Ideal S50x7 .f32) (p : Fin 2000) (q : Fin 7) (row : Fin 50000)
    (hx0 : ∀ k : Fin 50, x0 (ix2 p k) = a (ix2 row k)) (hx1 : ∀ k : Fin 50, x1 (ix2 k q) = w (ix2 k q)) :
    k2_pay1 (F := Ideal) x0 x1 (ix2 p q) = product a w (ix2 row q) := by
  unfold k2_pay1
  try dsimp only
  rw [shapeCast_self]
  exact Cert.LibRowTiles.tile_product_eq 50000 50 7 2000 none none .single a w _ _ p q row hx0 hx1

/-- The index maps over the grid: the left operand's and the result's tile sit at block row t, column block 0; the
    right operand at block (0, 0). -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What tile t writes back is block t of the whole product of the two arrays as the region finds them. -/
theorem flushed_eq (c : Dev nD) (t : Fin cfg2.N) :
    (dat2 V c).flushed 2 t = ((cfg2.win 2).blk t).view.read (Elt Ideal) (product (V c main_v67) (V c main_arg6)) := by
  show (cfg2.win 2).cut (grid2.coords t) ((dat2 V c).after 2 t) = _
  rw [after2_2]
  unfold out2_2
  rw [View.canon_unit_zero origin]
  simp only [View.ld_unit_zero (S := S2000x50) origin, View.ld_unit_zero (S := S50x7) origin]
  obtain ⟨e0, e1, e2, e3, e4, e5⟩ := block_positions t
  have ht : t.val < 25 := by have h := t.isLt; have hN : cfg2.N = 25 := N_2; omega
  funext j
  obtain ⟨p, q, rfl⟩ : ∃ (p : Fin 2000) (q : Fin 7), j = ix2 p q := ⟨j 0, j 1, eq_ix2 j⟩
  have hrow : t.val * 2000 + p.val < 50000 := by have := p.isLt; omega
  show k2_pay1 (F := Ideal) (iblk2 V c 0 t) (iblk2 V c 1 t) (ix2 p q)
    = product (V c main_v67) (V c main_arg6) (((cfg2.win 2).blk t).view.emb (ix2 p q))
  have hout : ((cfg2.win 2).blk t).view.emb (ix2 p q) = ix2 (⟨t.val * 2000 + p.val, hrow⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 7 + 1 * q.val = q.val; omega
  rw [hout]
  refine tile_entry (V c main_v67) (V c main_arg6) (iblk2 V c 0 t) (iblk2 V c 1 t) p q ⟨t.val * 2000 + p.val, hrow⟩ ?_ ?_
  · intro k
    show V c main_v67 (((cfg2.win 0).blk t).view.emb (ix2 p k)) = _
    refine congrArg (V c main_v67) ?_
    funext a; apply Fin.ext
    match a with
    | ⟨0, _⟩ => show win2_0.index t (0 : Fin 2) * 2000 + 1 * p.val = t.val * 2000 + p.val; omega
    | ⟨1, _⟩ => show win2_0.index t (1 : Fin 2) * 50 + 1 * k.val = k.val; omega
  · intro k
    show V c main_arg6 (((cfg2.win 1).blk t).view.emb (ix2 k q)) = _
    refine congrArg (V c main_arg6) ?_
    funext a; apply Fin.ext
    match a with
    | ⟨0, _⟩ => show win2_1.index t (0 : Fin 2) * 50 + 1 * k.val = k.val; omega
    | ⟨1, _⟩ => show win2_1.index t (1 : Fin 2) * 7 + 1 * q.val = q.val; omega

/-- An index of the result array is in tile t's block iff each coordinate is in the block's range on its axis. -/
theorem mem_block (t : Fin cfg2.N) (i : S50000x7.Idx) :
    i ∈ ((cfg2.win 2).blk t).view.set ↔ ∀ a : Fin 2, win2_2.index t a * S2000x7.size a ≤ (i a).val ∧ (i a).val < win2_2.index t a * S2000x7.size a + S2000x7.size a := by
  show i ∈ ((View.whole main_v68).slice (win2_2.rect t)).set ↔ _
  rw [View.set_slice_whole, Rect.mem_set_unit]
  exact Iff.rfl

/-- Every row of the result is in the tile numbered by its row divided by 2000. -/
theorem covered (i : S50000x7.Idx) :
    ∃ t : Fin cfg2.N, (cfg2.win 2).flush t = true ∧ i ∈ ((cfg2.win 2).blk t).view.set := by
  have h0 : (i 0).val < 50000 := (i 0).isLt
  have h1 : (i 1).val < 7 := (i 1).isLt
  have hN : cfg2.N = 25 := N_2
  let t : Fin cfg2.N := ⟨(i 0).val / 2000, by rw [hN]; omega⟩
  refine ⟨t, flush2_2 t, ?_⟩
  rw [mem_block]
  obtain ⟨e0, e1, e2, e3, e4, e5⟩ := block_positions t
  have ht : t.val = (i 0).val / 2000 := rfl
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 7 ≤ (i 1).val ∧ (i 1).val < win2_2.index t (1 : Fin 2) * 7 + 7; omega

/-- The result array after the region: the whole product of the two arrays as the region found them. -/
theorem result (c : Dev nD) : (dat2 V c).arrAt 2 cfg2.N = product (V c main_v67) (V c main_arg6) :=
  (dat2 V c).arrAt_eq_of_cover 2 (product (V c main_v67) (V c main_arg6)) (fun t _ => flushed_eq V c t) covered

end Cert.KernelIdeal.Transform2

end
-- ==== Proof.StageLayer3.lean ====
/-
  The third graph-convolution layer of the idealized kernel program, read back stage by stage.

  The pipelined kernel leaves in its result array the whole product of the layer's input with its weight matrix (the
  tiles cover the rows). After it the host gathers the product's rows at the edges' sources, scales each by the edge's
  weight, sums them into the edges' destinations, adds the bias and clamps at zero. Read back from the fold of these host
  operations, with the product, the index vectors, the edge weights and the bias at the values established before,
  the layer's output is the reference's stage of the same name: the same operations applied to the same values.
  The index vectors, the edge weights and the later layers' arguments pass through untouched.
-/
import proofs.«136865_j77223511982296_1_alg».proof.Proof.StageLayer2
import proofs.«136865_j77223511982296_1_alg».proof.Proof.Transform2
import proofs.«136865_j77223511982296_1_alg».proof.Proof.Stretches
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (ρ : Dev nD → PrngReg)

/-- The kernel's result array after the region: the product of the layer's input and weight. -/
theorem transform3_value (c : Dev nD) :
    W10 m ρ c (Proc.devRef .tc main_v68) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Transform2.result (V9 m ρ) c).trans ?_)
  show Transform2.product (W9 m ρ c (Proc.devRef .tc main_v67)) (W9 m ρ c (Proc.devRef .tc main_arg6)) = _
  rw [hidden2_value m ρ c, arg6_entry2 m ρ c]
  rfl

/-- What the region leaves as it found it, after the region. -/
theorem src_after3 (c : Dev nD) : W10 m ρ c (Proc.devRef .tc main_v3) = val_main_v3 (F := Ideal) (m ((c : Thread nD τ).loc main_arg1)) :=
  (W10_of_ne m ρ c main_v3 (by decide)).trans (src_entry2 m ρ c)
theorem dst_after3 (c : Dev nD) : W10 m ρ c (Proc.devRef .tc main_v6) = val_main_v6 (F := Ideal) (m ((c : Thread nD τ).loc main_arg1)) :=
  (W10_of_ne m ρ c main_v6 (by decide)).trans (dst_entry2 m ρ c)
theorem norm_after3 (c : Dev nD) : W10 m ρ c (Proc.devRef .tc main_v31) = val_main_v31 (F := Ideal) (m ((c : Thread nD τ).loc main_arg1)) :=
  (W10_of_ne m ρ c main_v31 (by decide)).trans (norm_entry2 m ρ c)
theorem arg7_after3 (c : Dev nD) : W10 m ρ c (Proc.devRef .tc main_arg7) = (m ((c : Thread nD τ).loc main_arg7)) :=
  (W10_of_ne m ρ c main_arg7 (by decide)).trans (arg7_entry2 m ρ c)

set_option maxHeartbeats 4000000 in
/-- Aggregate over the edges and add the bias: the layer's output before the clamp. -/
theorem aggregate3_value (c : Dev nD) :
    W11 m ρ c (Proc.devRef .tc main_v84) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hp := transform3_value m ρ c
  have h3 := src_after3 m ρ c
  have h6 := dst_after3 m ρ c
  have h31 := norm_after3 m ρ c
  have hb := arg7_after3 m ρ c
  dsimp only [W11]
  generalize W10 m ρ c = V at hp h3 h6 h31 hb ⊢
  dsimp only [hostOps3]
  after_results_simp
  rw [hp, h3, h6, h31, hb]
  rfl

/-- The layer's output: the aggregate clamped at zero. -/
theorem hidden3_value (c : Dev nD) :
    W12 m ρ c (Proc.devRef .tc main_v85) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (relu3_stretch (W11 m ρ c)).trans ?_
  rw [aggregate3_value m ρ c]
  rfl

end Cert.KernelIdeal.Stages

end
-- ==== Proof.lean ====
/-
  A three-layer graph convolution: the kernel program against its reference, on the extended reals.

  Both programs build the same normalized adjacency from the edge list — source and destination vectors with a self
  loop per node, in-degrees by scattering ones, d^(-1/2) where the degree is positive, one weight per edge — and apply
  three layers h ↦ relu(A · (h · W) + b). They differ in one place per layer: the dense transform h · W. The
  reference takes it as one [50000, K] × [K, B] product; the kernel walks the 50000 rows in 25 tiles of 2000, narrows
  both operands to bf16 and multiplies tile by tile. On the ideal values narrowing is the identity and each tile's
  product is the matching rows of the whole product (the same sums over the contracted coordinate), and the tiles cover
  every row, so after each region the kernel's array holds the reference's product. Everything around the products is
  the same sequence of host operations on the same values, so the two results agree stage by stage; no algebraic
  law beyond reading a product entry as its sum is needed, and the precondition is never opened.

  The three frames: the kernel's two are the generated frame certificates; the reference has no kernel, and its frame
  is its run with the result dropped. The idealization rewrote nothing, so there is nothing to preserve.
-/
import proofs.«136865_j77223511982296_1_alg».proof.Defs
import proofs.«136865_j77223511982296_1_alg».proof.Proof.Gen.Kernel
import proofs.«136865_j77223511982296_1_alg».proof.Proof.Gen.Kernel.Frame
import proofs.«136865_j77223511982296_1_alg».proof.Proof.Gen.KernelIdeal
import proofs.«136865_j77223511982296_1_alg».proof.Proof.Gen.KernelIdeal.Frame
import proofs.«136865_j77223511982296_1_alg».proof.Proof.Gen.ReferenceIdeal
import proofs.«136865_j77223511982296_1_alg».proof.Proof.Gen.Pre_finite_inputs
import proofs.«136865_j77223511982296_1_alg».proof.Proof.KernelRun
import proofs.«136865_j77223511982296_1_alg».proof.Proof.StageLayer3
import proofs.«136865_j77223511982296_1_alg».proof.Proof.RefRunP
import proofs.«136865_j77223511982296_1_alg».proof.Proof.RefReadP
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, keeping only that the arguments end as launched. -/
theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the reference's last stage of the shared arguments. -/
theorem algebraic : Cert.algebraic_KernelIdeal_ReferenceIdeal := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.hidden3_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v85_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
